-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S512x512x512 : Shape := ⟨3, ![512, 512, 512]⟩
abbrev S16x64x256 : Shape := ⟨3, ![16, 64, 256]⟩
abbrev S16x128x512 : Shape := ⟨3, ![16, 128, 512]⟩
abbrev S1x64x256 : Shape := ⟨3, ![1, 64, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S128x256x1 : Shape := ⟨3, ![128, 256, 1]⟩
abbrev S128x256x2 : Shape := ⟨3, ![128, 256, 2]⟩
abbrev S128x512 : Shape := ⟨2, ![128, 512]⟩
abbrev S1x128x512 : Shape := ⟨3, ![1, 128, 512]⟩
abbrev S8x64x512x512 : Shape := ⟨4, ![8, 64, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x512x512, .f32⟩
  | .hbm, ⟨3, _⟩ => ⟨S8x64x512x512, .f32⟩
  | .local _ .vmem, ⟨0, _⟩ => ⟨S16x64x256, .f32⟩
  | .local _ .vmem, ⟨1, _⟩ => ⟨S16x64x256, .f32⟩
  | .local _ .vmem, ⟨2, _⟩ => ⟨S16x128x512, .f32⟩
  | .local _ .vmem, ⟨3, _⟩ => ⟨S16x128x512, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v1 : Index := Scalar.indexCast arg4
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v12 : Index := Scalar.indexCast arg4
  let c0_2 : Index := 0#32
  let c0_3 : Index := 0#32
  ![v12.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x64x256x256_S512x256x256 : S8x64x256x256.ShapeCasts S512x256x256
  h_S1x64x256 : 0 < S1x64x256.numel
  shapeCasts_S1x64x256_S64x256 : S1x64x256.ShapeCasts S64x256
  shapeCasts_S64x256_S64x1x256 : S64x256.ShapeCasts S64x1x256
  shapeCasts_S64x1x256_S64x1x256 : S64x1x256.ShapeCasts S64x1x256
  broadcasts_S64x1x256_S64x2x256 : S64x1x256.Broadcasts S64x2x256
  shapeCasts_S64x2x256_S128x256 : S64x2x256.ShapeCasts S128x256
  shapeCasts_S128x256_S128x256x1 : S128x256.ShapeCasts S128x256x1
  shapeCasts_S128x256x1_S128x256x1 : S128x256x1.ShapeCasts S128x256x1
  broadcasts_S128x256x1_S128x256x2 : S128x256x1.Broadcasts S128x256x2
  shapeCasts_S128x256x2_S128x512 : S128x256x2.ShapeCasts S128x512
  h_S1x128x512 : 0 < S1x128x512.numel
  shapeCasts_S1x128x512_S128x512 : S1x128x512.ShapeCasts S128x512
  shapeCasts_S128x512_S1x128x512 : S128x512.ShapeCasts S1x128x512
  shapeCasts_S512x512x512_S8x64x512x512 : S512x512x512.ShapeCasts S8x64x512x512
  hrank0 : 0 < grid0.rank
  k0_t1_ok : k0_t1_loop.OK
  k0_off1_inb : ∀ k0_t1 : Fin k0_t1_loop.trips, ∀ a, (k0_off1 k0_t1) a + S1x64x256.size a ≤ S16x64x256.size a
  k0_off2_inb : ∀ k0_t1 : Fin k0_t1_loop.trips, ∀ a, (k0_off2 k0_t1) a + S1x128x512.size a ≤ S16x128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S512x256x256.size a
  hwx0_0 : ∀ i : grid0.Coords, EltTy.bits .f32 = 32 ∨ (Rect.block (s := S512x256x256) S16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x512.size a ≤ S512x512x512.size a
  hwx0_1 : ∀ i : grid0.Coords, EltTy.bits .f32 = 32 ∨ (Rect.block (s := S512x512x512) S16x128x512.size (cc0_transform_1 i) (hinb0_1 i)).WholeWords (EltTy.packing .f32)

variable [Facts₀]

abbrev win0_0 : Pipeline.Window sig grid0 :=
  Pipeline.Window.ofSpec (Memref.whole main_v0) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x64x256x2x256 : Shape := ⟨5, ![8, 64, 256, 2, 256]⟩
abbrev S8x64x512x256 : Shape := ⟨4, ![8, 64, 512, 256]⟩
abbrev S8x64x512x256x2 : Shape := ⟨5, ![8, 64, 512, 256, 2]⟩
abbrev S8x64x512x512 : Shape := ⟨4, ![8, 64, 512, 512]⟩

abbrev nBuf : Space → Nat
  | .hbm => 5
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x2x256, .f32⟩
  | .hbm, ⟨2, _⟩ => ⟨S8x64x512x256, .f32⟩
  | .hbm, ⟨3, _⟩ => ⟨S8x64x512x256x2, .f32⟩
  | .hbm, ⟨4, _⟩ => ⟨S8x64x512x512, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  bcast_S8x64x256x256_S8x64x256x2x256_0_1_2_4 : S8x64x256x256.BroadcastsInDim S8x64x256x2x256 (![0, 1, 2, 4] : Fin 4 → Fin S8x64x256x2x256.rank)
  shapeCasts_S8x64x256x2x256_S8x64x512x256 : S8x64x256x2x256.ShapeCasts S8x64x512x256
  bcast_S8x64x512x256_S8x64x512x256x2_0_1_2_3 : S8x64x512x256.BroadcastsInDim S8x64x512x256x2 (![0, 1, 2, 3] : Fin 4 → Fin S8x64x512x256x2.rank)
  shapeCasts_S8x64x512x256x2_S8x64x512x512 : S8x64x512x256x2.ShapeCasts S8x64x512x512

variable [Facts₀]

class Facts : Prop extends Facts₀ where

variable [Facts]
-- ==== Proof.Spec.lean ====
/-
  Nearest-neighbour upsampling by two along the last two axes, as a function of the source array, index by index:
  the element at row `r`, column `l` of the enlarged image is the source's element at row `r / 2`, column `l / 2`.
  Stated three times, once for each arrangement of the leading axes the two programs pass through: one slab of
  sixteen images (a block), the flat stack of 512 images (the array the blocks tile), and the stack as batch × channel.
-/
import Idealize.ShloMosaic.PureOps.Ideal
import Idealize.ShloMosaic.Lib.ValueIdx

noncomputable section

namespace Cert.Upsample

open Idealize.ShloMosaic Idealize.ShloMosaic.ValueIdx

/-- Half of a coordinate below 128. -/
abbrev h128 (r : Fin 128) : Fin 64 := ⟨r.val / 2, by have := r.isLt; omega⟩
/-- Half of a coordinate below 512. -/
abbrev h512 (l : Fin 512) : Fin 256 := ⟨l.val / 2, by have := l.isLt; omega⟩

variable {α : Type}

/-- One block: sixteen 64 × 256 images enlarged to sixteen 128 × 512 images. -/
def blockUp (x : (⟨3, ![16, 64, 256]⟩ : Shape).Idx → α) : (⟨3, ![16, 128, 512]⟩ : Shape).Idx → α :=
  fun y => x (ix3 (n0 := 16) (n1 := 64) (n2 := 256) (y 0) (h128 (y 1)) (h512 (y 2)))

/-- The flat stack: 512 images of 256 × 256 enlarged to 512 × 512. -/
def stackUp (x : (⟨3, ![512, 256, 256]⟩ : Shape).Idx → α) : (⟨3, ![512, 512, 512]⟩ : Shape).Idx → α :=
  fun y => x (ix3 (n0 := 512) (n1 := 256) (n2 := 256) (y 0) (h512 (y 1)) (h512 (y 2)))

/-- The stack as batch × channel: the function both programs compute. -/
def up (x : (⟨4, ![8, 64, 256, 256]⟩ : Shape).Idx → α) : (⟨4, ![8, 64, 512, 512]⟩ : Shape).Idx → α :=
  fun i => x (ix4 (n0 := 8) (n1 := 64) (n2 := 256) (n3 := 256) (i 0) (i 1) (h512 (i 2)) (h512 (i 3)))

end Cert.Upsample

end
-- ==== Proof.Payload.lean ====
/-
  What one trip of the body stores, read at an index. The stored 1 × 128 × 512 slab is the loaded 1 × 64 × 256 slab
  sent through reshapes and two broadcasts: each row is repeated (insert a unit axis after the rows, broadcast it to
  two, merge it back into the rows) and then each column (the same on a trailing axis). A reshape keeps the row-major
  position, a broadcast forgets the new axis's coordinate; followed step by step, row `r` and column `l` of the stored slab
  is row `r / 2` and column `l / 2` of the loaded one.
-/
import proofs.«172385_j29171417874896_2_alg».proof.Proof.Gen.KernelIdeal.Skeleton
import proofs.«172385_j29171417874896_2_alg».proof.Proof.Spec
import Idealize.ShloMosaic.Lib.Pipeline.Value
import Idealize.ShloMosaic.Lib.ValueIdx

noncomputable section

namespace Cert.KernelIdeal.Up

open Idealize.ShloMosaic Idealize.ShloMosaic.ValueIdx Cert.KernelIdeal Cert.KernelIdeal.Gen Cert.Upsample

variable {F : FTy → Type} [FloatOps F]

theorem pay_apply (v2 : Vec F S1x64x256 .f32) (a : Fin 1) (r : Fin 128) (l : Fin 512) :
    k0_pay1 v2 (ix3 a r l) = v2 (ix3 (0 : Fin 1) (h128 r) (h512 l)) := by
  have ha : a.val = 0 := by have := a.isLt; omega
  have hr : r.val < 128 := r.isLt
  have hl : l.val < 512 := l.isLt
  unfold k0_pay1
  -- the outer reshape 128 × 512 → 1 × 128 × 512
  refine (shapeCast_apply _ shapeCasts_S128x512_S1x128x512 (ix3 a r l) (ix2 r l) ?_).trans ?_
  · rw [Shape.rowMajor_val_two, Shape.rowMajor_val_three]
    show r.val * 512 + l.val = (a.val * 128 + r.val) * 512 + l.val
    omega
  -- columns: 128 × 256 × 2 → 128 × 512
  refine (shapeCast_apply _ shapeCasts_S128x256x2_S128x512 (ix2 r l)
    (ix3 r (h512 l) (⟨l.val % 2, by omega⟩ : Fin 2)) ?_).trans ?_
  · rw [Shape.rowMajor_val_two, Shape.rowMajor_val_three]
    show (r.val * 256 + l.val / 2) * 2 + l.val % 2 = r.val * 512 + l.val
    omega
  refine (broadcastTo_apply _ broadcasts_S128x256x1_S128x256x2 _ (ix3 r (h512 l) (0 : Fin 1))
    (fun d => match d with | ⟨0, _⟩ => rfl | ⟨1, _⟩ => rfl | ⟨2, _⟩ => rfl)).trans ?_
  refine (shapeCast_apply _ shapeCasts_S128x256x1_S128x256x1 _ (ix3 r (h512 l) (0 : Fin 1)) rfl).trans ?_
  refine (shapeCast_apply _ shapeCasts_S128x256_S128x256x1 _ (ix2 r (h512 l)) ?_).trans ?_
  · rw [Shape.rowMajor_val_two, Shape.rowMajor_val_three]
    show r.val * 256 + l.val / 2 = (r.val * 256 + l.val / 2) * 1 + 0
    omega
  -- rows: 64 × 2 × 256 → 128 × 256
  refine (shapeCast_apply _ shapeCasts_S64x2x256_S128x256 _
    (ix3 (h128 r) (⟨r.val % 2, by omega⟩ : Fin 2) (h512 l)) ?_).trans ?_
  · rw [Shape.rowMajor_val_two, Shape.rowMajor_val_three]
    show (r.val / 2 * 2 + r.val % 2) * 256 + l.val / 2 = r.val * 256 + l.val / 2
    omega
  refine (broadcastTo_apply _ broadcasts_S64x1x256_S64x2x256 _ (ix3 (h128 r) (0 : Fin 1) (h512 l))
    (fun d => match d with | ⟨0, _⟩ => rfl | ⟨1, _⟩ => rfl | ⟨2, _⟩ => rfl)).trans ?_
  refine (shapeCast_apply _ shapeCasts_S64x1x256_S64x1x256 _ (ix3 (h128 r) (0 : Fin 1) (h512 l)) rfl).trans ?_
  refine (shapeCast_apply _ shapeCasts_S64x256_S64x1x256 _ (ix2 (h128 r) (h512 l)) ?_).trans ?_
  · rw [Shape.rowMajor_val_two, Shape.rowMajor_val_three]
    show r.val / 2 * 256 + l.val / 2 = (r.val / 2 * 1 + 0) * 256 + l.val / 2
    omega
  refine shapeCast_apply _ shapeCasts_S1x64x256_S64x256 _ (ix3 (0 : Fin 1) (h128 r) (h512 l)) ?_
  rw [Shape.rowMajor_val_two, Shape.rowMajor_val_three]
  show (0 * 64 + r.val / 2) * 256 + l.val / 2 = r.val / 2 * 256 + l.val / 2
  omega

end Cert.KernelIdeal.Up

end
-- ==== Proof.Block.lean ====
/-
  What the body leaves in the output block. The body's loop runs over the sixteen images of the block: trip `k` loads
  image `k` of the input block and stores its enlargement as image `k` of the output block, one rectangle per trip.
  Every stored rectangle is therefore the restriction of ONE function of the output block's index — the input block
  enlarged — and the sixteen rectangles tile the block, so after the loop the block holds that function.
-/
import proofs.«172385_j29171417874896_2_alg».proof.Proof.Gen.KernelIdeal.Frame
import proofs.«172385_j29171417874896_2_alg».proof.Proof.Payload

set_option maxRecDepth 16384

noncomputable section

namespace Cert.KernelIdeal.Up

open Idealize.ShloMosaic Idealize.ShloMosaic.TcCoe Idealize.ShloMosaic.ValueIdx
open Idealize.SL Idealize.SL.Sem
open Cert.KernelIdeal Cert.KernelIdeal.Gen Cert.Upsample

variable {F : FTy → Type} [FloatOps F]

/-- The one rectangle trip `k` stores restricts the enlarged input block: at row `r`, column `l` of image `k` it holds
    the input block's image `k` at row `r / 2`, column `l / 2`. -/
theorem trip_restricts (𝒱 : Variants) (c : Dev nD) (bd : Option 𝒱.V) (i : grid0.Coords)
    (arg2 : Memref sig .tc .vmem S16x64x256 .f32) (harg2 : arg2.IsWhole)
    (arg3 : Memref sig .tc .vmem S16x128x512 .f32) (harg3 : arg3.IsWhole)
    (x0 : Vec F S16x64x256 .f32) (k : Fin k0_t1_loop.trips) :
    ∀ p ∈ tripL_k0_t1 (F := F) 𝒱 c bd i arg2 harg2 arg3 harg3 (harg2.unread x0) k,
      ∀ x : p.1.shape.Idx, p.2 x = blockUp x0 (p.1.emb x) := by
  unfold tripL_k0_t1 trip_k0_t1
  dsimp only
  intro p hp
  rw [List.mem_singleton] at hp
  subst hp
  intro x
  dsimp only
  obtain ⟨a, r, l, rfl⟩ : ∃ (a : Fin 1) (r : Fin 128) (l : Fin 512), x = ix3 a r l := ⟨x 0, x 1, x 2, eq_ix3 x⟩
  rw [View.readAt_eq_ld, harg2.read_unread]
  refine (pay_apply _ a r l).trans ?_
  have e1 : k0_off1 k = ![k.val, 0, 0] := k0_off1_eq k
  have e2 : k0_off2 k = ![k.val, 0, 0] := k0_off2_eq k
  have ha : a.val = 0 := by have := a.isLt; omega
  unfold blockUp
  refine congrArg x0 (funext fun d => Fin.ext ?_)
  match d with
  | ⟨0, _⟩ =>
    show k0_off1 k 0 + 1 * 0 = k0_off2 k 0 + 1 * a.val
    rw [e1, e2]; show k.val + 1 * 0 = k.val + 1 * a.val; omega
  | ⟨1, _⟩ =>
    show k0_off1 k 1 + 1 * (r.val / 2) = (k0_off2 k 1 + 1 * r.val) / 2
    rw [e1, e2]; show 0 + 1 * (r.val / 2) = (0 + 1 * r.val) / 2; omega
  | ⟨2, _⟩ =>
    show k0_off1 k 2 + 1 * (l.val / 2) = (k0_off2 k 2 + 1 * l.val) / 2
    rw [e1, e2]; show 0 + 1 * (l.val / 2) = (0 + 1 * l.val) / 2; omega

/-- So does every rectangle stored by the trips before the `n`-th. -/
theorem trips_restrict (𝒱 : Variants) (c : Dev nD) (bd : Option 𝒱.V) (i : grid0.Coords)
    (arg2 : Memref sig .tc .vmem S16x64x256 .f32) (harg2 : arg2.IsWhole)
    (arg3 : Memref sig .tc .vmem S16x128x512 .f32) (harg3 : arg3.IsWhole)
    (x0 : Vec F S16x64x256 .f32) :
    ∀ n, n ≤ k0_t1_loop.trips →
      ∀ p ∈ pb_k0_t1 (F := F) 𝒱 c bd i arg2 harg2 arg3 harg3 (harg2.unread x0) n,
        ∀ x : p.1.shape.Idx, p.2 x = blockUp x0 (p.1.emb x)
  | 0, _ => fun p hp => absurd hp List.not_mem_nil
  | n + 1, hn => fun p hp => by
    have hs : pb_k0_t1 (F := F) 𝒱 c bd i arg2 harg2 arg3 harg3 (harg2.unread x0) (n + 1)
        = tripL_k0_t1 (F := F) 𝒱 c bd i arg2 harg2 arg3 harg3 (harg2.unread x0) ⟨n, Nat.lt_of_succ_le hn⟩
          ++ pb_k0_t1 (F := F) 𝒱 c bd i arg2 harg2 arg3 harg3 (harg2.unread x0) n :=
      pb_k0_t1_succ (F := F) 𝒱 c bd i arg2 harg2 arg3 harg3 (harg2.unread x0) ⟨n, Nat.lt_of_succ_le hn⟩
    rw [hs, List.mem_append] at hp
    rcases hp with hp | hp
    · exact trip_restricts 𝒱 c bd i arg2 harg2 arg3 harg3 x0 ⟨n, Nat.lt_of_succ_le hn⟩ p hp
    · exact trips_restrict 𝒱 c bd i arg2 harg2 arg3 harg3 x0 n (Nat.le_of_succ_le hn) p hp

/-- After the body the output block is the input block enlarged. -/
theorem block_eq (c : Dev nD) (i : grid0.Coords)
    (arg2 : Memref sig .tc .vmem S16x64x256 .f32) (harg2 : arg2.IsWhole)
    (arg3 : Memref sig .tc .vmem S16x128x512 .f32) (harg3 : arg3.IsWhole)
    (x0 : Vec F S16x64x256 .f32) :
    out0_A_1 (F := F) c i arg2 harg2 arg3 harg3 x0 = blockUp x0 := by
  unfold out0_A_1
  rw [View.read_writes_eq_canon _ _ _ (cover0_A_1 c i arg2 harg2 arg3 harg3 x0)]
  funext y
  refine View.canon_apply_of_pieces (blockUp x0) _ ?_ y (cover0_A_1 c i arg2 harg2 arg3 harg3 x0 y)
  unfold kernelRun0_A
  dsimp only
  exact trips_restrict Variants.none c none i arg2 harg2 arg3 harg3 x0 _ (Nat.le_refl _)

end Cert.KernelIdeal.Up

end
-- ==== Proof.Stack.lean ====
/-
  From blocks to the whole array. Grid point `(p, q)` stages images `16 p … 16 p + 15`, rows `64 q … 64 q + 63` of the
  flat input stack and writes back images `16 p …`, rows `128 q … 128 q + 127` of the flat output stack, all columns.
  The block written back is the staged block enlarged, and enlarging commutes with cutting such blocks: row
  `128 q + r` of the output is row `(128 q + r) / 2 = 64 q + r / 2` of the input. The 32 × 4 output blocks tile the
  output stack, so after the region it holds the input stack enlarged.
-/
import proofs.«172385_j29171417874896_2_alg».proof.Proof.Block
import Idealize.ShloMosaic.Lib.Pipeline.Value

set_option maxRecDepth 16384

noncomputable section

namespace Cert.KernelIdeal.Up

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Upsample

variable {F : FTy → Type} [FloatOps F]
variable (m : (ℓ : Loc nD τ sig) → Buf (Elt F) ℓ)

/-- The two windows move together over the grid: the same block numbers on the image and row axes, block 0 on the
    column axis; the block numbers stay below 32 and 4. -/
theorem index_facts : ∀ t : Fin cfg0.N,
    win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) < 32 ∧ win0_1.index t (1 : Fin 3) < 4 :=
  (by decide +kernel : ∀ t : Fin grid0.N, _)

/-- Every pair of block numbers is some grid point's. -/
theorem index_onto : ∀ (p : Fin 32) (q : Fin 4), ∃ t : Fin cfg0.N, win0_1.index t = ![p.val, q.val, 0] :=
  (by decide +kernel : ∀ (p : Fin 32) (q : Fin 4), ∃ t : Fin grid0.N, win0_1.index t = ![p.val, q.val, 0])

/-- What point `t` writes back is block `t` of the enlarged input stack. -/
theorem flushed_eq (c : Dev nD) (t : Fin cfg0.N) :
    (dats m 0 c).flushed 1 t = ((cfg0.win 1).blk t).view.read (Elt F) (stackUp (V m c main_v0)) := by
  show (cfg0.win 1).cut (grid0.coords t) ((dats m 0 c).after 1 t) = _
  rw [after0_1]
  unfold outsAt0
  rw [block_eq]
  obtain ⟨e0, e1, e2, e3, -, -⟩ := index_facts t
  funext j
  have hj0 : (j 0).val < 16 := (j 0).isLt
  have hj1 : (j 1).val < 128 := (j 1).isLt
  have hj2 : (j 2).val < 512 := (j 2).isLt
  show V m c main_v0 (((cfg0.win 0).blk t).view.emb (ix3 (n0 := 16) (n1 := 64) (n2 := 256) (j 0) (h128 (j 1)) (h512 (j 2))))
    = V m c main_v0 (ix3 (n0 := 512) (n1 := 256) (n2 := 256) ((((cfg0.win 1).blk t).view.emb j) 0)
        (h512 ((((cfg0.win 1).blk t).view.emb j) 1)) (h512 ((((cfg0.win 1).blk t).view.emb j) 2)))
  refine congrArg (V m c main_v0) (funext fun a => Fin.ext ?_)
  match a with
  | ⟨0, _⟩ =>
    show win0_0.index t (0 : Fin 3) * 16 + 1 * (j 0).val = win0_1.index t (0 : Fin 3) * 16 + 1 * (j 0).val
    omega
  | ⟨1, _⟩ =>
    show win0_0.index t (1 : Fin 3) * 64 + 1 * ((j 1).val / 2) = (win0_1.index t (1 : Fin 3) * 128 + 1 * (j 1).val) / 2
    omega
  | ⟨2, _⟩ =>
    show win0_0.index t (2 : Fin 3) * 256 + 1 * ((j 2).val / 2) = (win0_1.index t (2 : Fin 3) * 512 + 1 * (j 2).val) / 2
    omega

/-- An index of the output stack is in point `t`'s block iff each coordinate is in the block's range on its axis. -/
theorem mem_block (t : Fin cfg0.N) (i : S512x512x512.Idx) :
    i ∈ ((cfg0.win 1).blk t).view.set ↔ ∀ a : Fin 3, win0_1.index t a * S16x128x512.size a ≤ (i a).val
      ∧ (i a).val < win0_1.index t a * S16x128x512.size a + S16x128x512.size a := by
  show i ∈ ((View.whole main_v1).slice (win0_1.rect t)).set ↔ _
  rw [View.set_slice_whole, Rect.mem_set_unit]
  exact Iff.rfl

/-- The written blocks cover the output stack: image `n`, row `r` lies in the block of point `(n / 16, r / 128)`. -/
theorem covered (i : S512x512x512.Idx) :
    ∃ t : Fin cfg0.N, (cfg0.win 1).flush t = true ∧ i ∈ ((cfg0.win 1).blk t).view.set := by
  have hi0 : (i 0).val < 512 := (i 0).isLt
  have hi1 : (i 1).val < 512 := (i 1).isLt
  have hi2 : (i 2).val < 512 := (i 2).isLt
  obtain ⟨t, ht⟩ := index_onto ⟨(i 0).val / 16, by omega⟩ ⟨(i 1).val / 128, by omega⟩
  have q0 : win0_1.index t (0 : Fin 3) = (i 0).val / 16 := congrFun ht 0
  have q1 : win0_1.index t (1 : Fin 3) = (i 1).val / 128 := congrFun ht 1
  have q2 : win0_1.index t (2 : Fin 3) = 0 := congrFun ht 2
  refine ⟨t, flush0_1 t, ?_⟩
  rw [mem_block]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 512 ≤ (i 2).val ∧ (i 2).val < win0_1.index t (2 : Fin 3) * 512 + 512
    omega

/-- After the region the output stack is the input stack, as the region found it, enlarged. -/
theorem stack_eq (c : Dev nD) : (dats m 0 c).arrAt 1 cfg0.N = stackUp (V m c main_v0) :=
  (dats m 0 c).arrAt_eq_of_cover 1 (stackUp (V m c main_v0)) (fun t _ => flushed_eq m c t) covered

end Cert.KernelIdeal.Up

end
-- ==== Proof.Regroup.lean ====
/-
  Regrouping the leading axes. Merging batch and channel into one axis of 512, enlarging every image of the flat
  stack, and splitting the axis again gives the enlargement of the batch × channel stack: a reshape keeps the
  row-major position, the image axes are untouched by it, and image number `b * 64 + c` of the flat stack is image
  `(b, c)`.
-/
import proofs.«172385_j29171417874896_2_alg».proof.Proof.Spec
import Idealize.ShloMosaic.Lib.Pipeline.Value
import Idealize.ShloMosaic.Lib.ValueIdx

noncomputable section

namespace Cert.Upsample

open Idealize.ShloMosaic Idealize.ShloMosaic.ValueIdx

variable {α : Type}

theorem regroup (x : (⟨4, ![8, 64, 256, 256]⟩ : Shape).Idx → α)
    (h1 : (⟨4, ![8, 64, 256, 256]⟩ : Shape).ShapeCasts ⟨3, ![512, 256, 256]⟩)
    (h2 : (⟨3, ![512, 512, 512]⟩ : Shape).ShapeCasts ⟨4, ![8, 64, 512, 512]⟩) :
    shapeCast ⟨4, ![8, 64, 512, 512]⟩ (stackUp (shapeCast ⟨3, ![512, 256, 256]⟩ x h1)) h2 = up x := by
  funext i
  have h0 : (i 0).val < 8 := (i 0).isLt
  have h1' : (i 1).val < 64 := (i 1).isLt
  have h2' : (i 2).val < 512 := (i 2).isLt
  have h3' : (i 3).val < 512 := (i 3).isLt
  refine (shapeCast_apply _ h2 i
    (ix3 (n0 := 512) (n1 := 512) (n2 := 512) ⟨(i 0).val * 64 + (i 1).val, by omega⟩ ⟨(i 2).val, h2'⟩ ⟨(i 3).val, h3'⟩) ?_).trans ?_
  · rw [Shape.rowMajor_val_three, Shape.rowMajor_val_four]
    show (((i 0).val * 64 + (i 1).val) * 512 + (i 2).val) * 512 + (i 3).val
      = (((i 0).val * 64 + (i 1).val) * 512 + (i 2).val) * 512 + (i 3).val
    rfl
  unfold stackUp up
  refine shapeCast_apply _ h1 _ _ ?_
  rw [Shape.rowMajor_val_three, Shape.rowMajor_val_four]
  show (((i 0).val * 64 + (i 1).val) * 256 + (i 2).val / 2) * 256 + (i 3).val / 2
    = (((i 0).val * 64 + (i 1).val) * 256 + (i 2).val / 2) * 256 + (i 3).val / 2
  rfl

end Cert.Upsample

end
-- ==== Proof.KernelUp.lean ====
/-
  The kernel's result. Around the region the host merges batch and channel into one axis (a reshape of the argument
  into the flat input stack) and splits it again (a reshape of the flat output stack into the result). With the region
  leaving the input stack enlarged, the result is the argument enlarged, image by image.
-/
import proofs.«172385_j29171417874896_2_alg».proof.Proof.Stack
import proofs.«172385_j29171417874896_2_alg».proof.Proof.Regroup
import Idealize.ShloMosaic.Lib.StableHlo.Run

set_option maxRecDepth 16384

noncomputable section

namespace Cert.KernelIdeal.Up

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Upsample

variable {F : FTy → Type} [FloatOps F]
variable (m : (ℓ : Loc nD τ sig) → Buf (Elt F) ℓ) (ρ : Dev nD → PrngReg)

/-- The region finds the flat input stack holding the argument, batch and channel merged. -/
theorem entry_stack (c : Dev nD) :
    (V m c main_v0 : S512x256x256.Idx → Elt F .f32)
      = shapeCast S512x256x256 (m ((c : Thread nD τ).loc main_arg0)) shapeCasts_S8x64x256x256_S512x256x256 := by
  show StableHlo.after hostOps0 (fun b => m (c, b)) (Proc.devRef .tc main_v0) = _
  after_results
  rfl

/-- The result is the flat output stack after the region with the leading axis split. -/
theorem result_stack (c : Dev nD) :
    (Pipeline.afterTail₀ cfgs (dats m) 0 (V0 m) [hostOps1] c main_v2 : S8x64x512x512.Idx → Elt F .f32)
      = shapeCast S8x64x512x512 ((dats m 0 c).arrAt 1 cfg0.N) shapeCasts_S512x512x512_S8x64x512x512 := by
  unfold Pipeline.afterTail₀
  show StableHlo.after hostOps1 _ (Proc.devRef .tc main_v2) = _
  after_results
  rw [Pipeline.withArrays_arr spec0 launch0.win.arr_inj c _ _ 1]
  rfl

/-- The result is the argument enlarged. -/
theorem result_eq (c : Dev nD) :
    (Pipeline.afterTail₀ cfgs (dats m) 0 (V0 m) [hostOps1] c main_v2 : S8x64x512x512.Idx → Elt F .f32)
      = up (m ((c : Thread nD τ).loc main_arg0)) := by
  rw [result_stack, stack_eq, entry_stack]
  exact regroup _ _ _

/-- Every weakly fair execution of the kernel's program terminates with the result holding the argument enlarged and
    the argument unchanged. -/
theorem run : θ_run defs (onTc (τ := τ) (main (F := F))) ⟨m, fun _ => 0, ρ⟩ fun r => ∀ c : Dev nD,
      r.2.mem ((c : Thread nD τ).loc main_v2) = up (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Up

end
-- ==== Proof.RefUp.lean ====
/-
  The reference computes the enlargement. `jnp.repeat` along an axis is a broadcast into a new axis of extent two next
  to it followed by a reshape that merges the two: done for the rows and then for the columns. Read at an index of
  the result, the two reshapes split row `r` into `(r / 2, r % 2)` and column `l` into `(l / 2, l % 2)`, and the two
  broadcasts forget the remainders: the source's element at row `r / 2`, column `l / 2` of the same image.
-/
import proofs.«172385_j29171417874896_2_alg».proof.Proof.Gen.ReferenceIdeal.Read
import proofs.«172385_j29171417874896_2_alg».proof.Proof.Spec

noncomputable section

namespace Cert.ReferenceIdeal.Up

open Idealize.ShloMosaic Idealize.ShloMosaic.ValueIdx Cert.ReferenceIdeal Cert.ReferenceIdeal.Read Cert.Upsample

variable {F : FTy → Type} [FloatOps F]

theorem ref_eq (x : (⟨S8x64x256x256, .f32⟩ : BufTy).Contents (Elt F)) : val_main_v3 (F := F) x = up x := by
  funext i
  have h0 : (i 0).val < 8 := (i 0).isLt
  have h1 : (i 1).val < 64 := (i 1).isLt
  have h2 : (i 2).val < 512 := (i 2).isLt
  have h3 : (i 3).val < 512 := (i 3).isLt
  rw [val_main_v3_apply, val_main_v2_apply, val_main_v1_apply, val_main_v0_apply]
  unfold up
  refine congrArg x (funext fun a => Fin.ext ?_)
  match a with
  | ⟨0, _⟩ =>
    show (((((((i 0).val * 64 + (i 1).val) * 512 + (i 2).val) * 512 + (i 3).val) / 16777216 * 64
        + ((((i 0).val * 64 + (i 1).val) * 512 + (i 2).val) * 512 + (i 3).val) / 262144 % 64) * 512
        + ((((i 0).val * 64 + (i 1).val) * 512 + (i 2).val) * 512 + (i 3).val) / 512 % 512) * 256
        + ((((i 0).val * 64 + (i 1).val) * 512 + (i 2).val) * 512 + (i 3).val) / 2 % 256) / 8388608 = (i 0).val
    omega
  | ⟨1, _⟩ =>
    show (((((((i 0).val * 64 + (i 1).val) * 512 + (i 2).val) * 512 + (i 3).val) / 16777216 * 64
        + ((((i 0).val * 64 + (i 1).val) * 512 + (i 2).val) * 512 + (i 3).val) / 262144 % 64) * 512
        + ((((i 0).val * 64 + (i 1).val) * 512 + (i 2).val) * 512 + (i 3).val) / 512 % 512) * 256
        + ((((i 0).val * 64 + (i 1).val) * 512 + (i 2).val) * 512 + (i 3).val) / 2 % 256) / 131072 % 64 = (i 1).val
    omega
  | ⟨2, _⟩ =>
    show (((((((i 0).val * 64 + (i 1).val) * 512 + (i 2).val) * 512 + (i 3).val) / 16777216 * 64
        + ((((i 0).val * 64 + (i 1).val) * 512 + (i 2).val) * 512 + (i 3).val) / 262144 % 64) * 512
        + ((((i 0).val * 64 + (i 1).val) * 512 + (i 2).val) * 512 + (i 3).val) / 512 % 512) * 256
        + ((((i 0).val * 64 + (i 1).val) * 512 + (i 2).val) * 512 + (i 3).val) / 2 % 256) / 512 % 256 = (i 2).val / 2
    omega
  | ⟨3, _⟩ =>
    show (((((((i 0).val * 64 + (i 1).val) * 512 + (i 2).val) * 512 + (i 3).val) / 16777216 * 64
        + ((((i 0).val * 64 + (i 1).val) * 512 + (i 2).val) * 512 + (i 3).val) / 262144 % 64) * 512
        + ((((i 0).val * 64 + (i 1).val) * 512 + (i 2).val) * 512 + (i 3).val) / 512 % 512) * 256
        + ((((i 0).val * 64 + (i 1).val) * 512 + (i 2).val) * 512 + (i 3).val) / 2 % 256) % 256 = (i 3).val / 2
    omega

end Cert.ReferenceIdeal.Up

end
-- ==== Proof.lean ====
/-
  Nearest-neighbour upsampling by two of a stack of 8 × 64 images of 256 × 256 reals.

  The kernel merges batch and channel into one axis of 512 images, and over a 32 × 4 grid enlarges blocks of sixteen
  images by sixty-four rows: inside a block a loop takes one image at a time, repeats every row (a unit axis inserted
  after the rows, broadcast to two, merged back) and then every column, and stores the enlarged image; the host then
  splits the leading axis again. The reference is `jnp.repeat` along the rows and then along the columns: each a
  broadcast into a new axis of extent two followed by a reshape that merges it.

  Both results are ONE function of the argument, index by index: the element at image `(b, c)`, row `r`, column `l` is
  the argument's element at image `(b, c)`, row `r / 2`, column `l / 2` (`Cert.Upsample.up`). No arithmetic is done on
  the elements, so the equality holds for every extended real and the finiteness precondition is never used.

  Kernel side: a trip's stored rectangle restricts the enlarged input block (Payload, Block); the sixteen rectangles
  tile the block; a written-back block is a block of the enlarged flat stack, and the 128 blocks tile it (Stack);
  the host reshapes around the region regroup the leading axis (Regroup, KernelUp). Reference side: its four
  operations read at an index compose to the halved coordinates (RefUp). The three frames are the programs' runs
  with the results dropped; the idealization rewrote no operation, so there is nothing to preserve.
-/
import proofs.«172385_j29171417874896_2_alg».proof.Defs
import proofs.«172385_j29171417874896_2_alg».proof.Proof.Gen.Kernel
import proofs.«172385_j29171417874896_2_alg».proof.Proof.Gen.Kernel.Skeleton
import proofs.«172385_j29171417874896_2_alg».proof.Proof.Gen.Kernel.Loops
import proofs.«172385_j29171417874896_2_alg».proof.Proof.Gen.Kernel.Launch
import proofs.«172385_j29171417874896_2_alg».proof.Proof.Gen.Kernel.Points
import proofs.«172385_j29171417874896_2_alg».proof.Proof.Gen.Kernel.Frame
import proofs.«172385_j29171417874896_2_alg».proof.Proof.Gen.KernelIdeal
import proofs.«172385_j29171417874896_2_alg».proof.Proof.Gen.KernelIdeal.Skeleton
import proofs.«172385_j29171417874896_2_alg».proof.Proof.Gen.KernelIdeal.Loops
import proofs.«172385_j29171417874896_2_alg».proof.Proof.Gen.KernelIdeal.Launch
import proofs.«172385_j29171417874896_2_alg».proof.Proof.Gen.KernelIdeal.Points
import proofs.«172385_j29171417874896_2_alg».proof.Proof.Gen.KernelIdeal.Frame
import proofs.«172385_j29171417874896_2_alg».proof.Proof.Gen.ReferenceIdeal
import proofs.«172385_j29171417874896_2_alg».proof.Proof.Gen.Pre_finite_inputs
import proofs.«172385_j29171417874896_2_alg».proof.Proof.Gen.ReferenceIdeal.Run
import proofs.«172385_j29171417874896_2_alg».proof.Proof.Gen.ReferenceIdeal.Read
import proofs.«172385_j29171417874896_2_alg».proof.Proof.KernelUp
import proofs.«172385_j29171417874896_2_alg».proof.Proof.RefUp
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the argument enlarged: the kernel's run and the reference's run,
    each re-posted at `Cert.Upsample.up` of the argument. -/
theorem algebraic : Cert.algebraic_KernelIdeal_ReferenceIdeal := by
  intro m ρ m' ρ' _ hagree
  refine ⟨fun c => Cert.Upsample.up (m ((c.tc : Thread Cert.KernelIdeal.nD Cert.KernelIdeal.τ).loc Cert.KernelIdeal.main_arg0)),
    Cert.KernelIdeal.Up.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Up.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
